-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S100000 32) (main_arg1 : IVec S1600000 32) (main_arg2 : IVec S1600000 32) (main_arg3 : FVec F S100000x128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg7 main_v13 main_v16
-- ==== Kernel.lean ====
abbrev S100000 : Shape := ⟨1, ![100000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S100000x64 : Shape := ⟨2, ![100000, 64]⟩
abbrev S5000x64 : Shape := ⟨2, ![5000, 64]⟩
abbrev S1x128 : Shape := ⟨2, ![1, 128]⟩
abbrev S1600000x64 : Shape := ⟨2, ![1600000, 64]⟩
abbrev S1x64 : Shape := ⟨2, ![1, 64]⟩

abbrev nBuf : Space → Nat
  | .hbm => 72
  | .vmem => 24
  | .smem => 0
  | _ => 0

abbrev bufTy : (tb : Table) → Fin (tcTables nBuf tb) → BufTy
  | .hbm, ⟨0, _⟩ => ⟨S100000, .i32⟩
  | .hbm, ⟨1, _⟩ => ⟨S1600000, .i32⟩
  | .hbm, ⟨2, _⟩ => ⟨S1600000, .i32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x1, .f32⟩
  | .hbm, ⟨34, _⟩ => ⟨S_, .i32⟩
  | .hbm, ⟨35, _⟩ => ⟨S100000, .i32⟩
  | .hbm, ⟨36, _⟩ => ⟨S100000, .i1⟩
  | .hbm, ⟨37, _⟩ => ⟨S_, .i32⟩
  | .hbm, ⟨38, _⟩ => ⟨S100000, .i32⟩
  | .hbm, ⟨39, _⟩ => ⟨S100000, .i32⟩
  | .hbm, ⟨40, _⟩ => ⟨S100000, .i32⟩
  | .hbm, ⟨41, _⟩ => ⟨S100000x1, .i32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S128, .f32⟩
  | .local _ .vmem, ⟨12, _⟩ => ⟨S128x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_7 : Ref sig .tc := ⟨.hbm, 44, rfl⟩
abbrev main_v23 : Ref sig .tc := ⟨.hbm, 45, rfl⟩
abbrev main_v24 : Ref sig .tc := ⟨.hbm, 46, rfl⟩
abbrev main_c_8 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_10 : Ref sig .tc := ⟨.hbm, 58, rfl⟩
abbrev main_v34 : Ref sig .tc := ⟨.hbm, 59, rfl⟩
abbrev main_v35 : Ref sig .tc := ⟨.hbm, 60, rfl⟩
abbrev main_c_11 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_12 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x128_S100000x1_S100000x128_1_0_n_n_0_1_1128_wf : GatherDims.WF S100000x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000 : Shape := ⟨1, ![100000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 90
  | .vmem => 0
  | .smem => 0
  | _ => 0

abbrev bufTy : (tb : Table) → Fin (tcTables nBuf tb) → BufTy
  | .hbm, ⟨0, _⟩ => ⟨S100000, .i32⟩
  | .hbm, ⟨1, _⟩ => ⟨S1600000, .i32⟩
  | .hbm, ⟨2, _⟩ => ⟨S1600000, .i32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S100000, .i32⟩
  | .hbm, ⟨34, _⟩ => ⟨S100000, .i1⟩
  | .hbm, ⟨35, _⟩ => ⟨S_, .i32⟩
  | .hbm, ⟨36, _⟩ => ⟨S100000, .i32⟩
  | .hbm, ⟨37, _⟩ => ⟨S100000, .i32⟩
  | .hbm, ⟨38, _⟩ => ⟨S100000, .i32⟩
  | .hbm, ⟨39, _⟩ => ⟨S100000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S100000x1, .f32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_6 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_7 : Ref sig .tc := ⟨.hbm, 44, rfl⟩
abbrev main_v23 : Ref sig .tc := ⟨.hbm, 45, rfl⟩
abbrev main_v24 : Ref sig .tc := ⟨.hbm, 46, rfl⟩
abbrev main_c_8 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_cst : Ref sig .tc := ⟨.hbm, 64, rfl⟩
abbrev main_call2_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S100000x1_S100000x128_1_0_n_n_0_1_1128_wf : GatherDims.WF S100000x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«157622_j4827543241288_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibGcnRows.lean ====
/-
  Three row-wise layers of a graph network on a matrix of node features, each in the two spellings it is written in —
  a kernel body's (self-casts of the loaded blocks, a column `[A, 1]` broadcast along the rows, operands rounded to bf16,
  the matrix unit's product into a zero accumulator, a bias `[M]` recast to the row `[1, M]` and broadcast, a splat zero)
  and the host's (`broadcast_in_dim` of the column, `dot_general`, the bias lifted twice, a broadcast rank-0 zero) —,
  over the extended reals and for any extents:
    • `scaleRows`:  entry (p, q) is  X(p,q) · n(p)
    • `scaleBias`:  entry (p, q) is  X(p,q) · n(p) + b(q)
    • `fused`:      entry (p, q) is  ( Σ_k max( Σ_j (X(p,j) · d(p)) · W₁(j,k) + b₁(k), 0 ) · W₂(k,q) ) · n(p)
  Each spelling equals the one function named above, as whole arrays. Entry (p, q) of each reads row p of the matrix and
  of the columns only: a block of consecutive rows computed by itself is the same rows of the whole (`*_rows`).
  Rounding to bf16 is the identity on extended reals, so no finiteness is used anywhere.
-/
import Idealize.ShloMosaic.PureOps.Ideal.Laws
import Idealize.ShloMosaic.Lib.ValueIdx
import Idealize.ShloMosaic.Lib.ValueLayout
import Idealize.ShloMosaic.Lib.Pipeline.Value
import proofs.«157622_j4827543241288_1_alg».proof.Proof.LibPlainDot
import proofs.«157622_j4827543241288_1_alg».proof.Proof.LibColumn
import proofs.«157622_j4827543241288_1_alg».proof.Proof.LibAffine

open scoped BigOperators

namespace Idealize.ShloMosaic.GcnRows

open Idealize.ShloMosaic Idealize.ShloMosaic.ValueIdx

variable {A B K H M : Nat}

/-! ## Layout reads on the host's side -/

/-- A column `[a, 1]` repeated along the rows to `[a, b]` by `broadcast_in_dim` reads, at `(p, q)`, the column's row `p`. -/
theorem bcastInDim_col_apply {α : Type} {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  have hp := p.isLt
  refine broadcastInDim_apply _ h w (ix2 p q) (ix2 p (0 : Fin 1)) fun ax => ?_
  match ax with
  | ⟨0, _⟩ =>
    show p.val = if a = 1 then 0 else p.val
    split
    · omega
    · rfl
  | ⟨1, _⟩ => rfl

/-- A rank-0 value broadcast to any shape reads that value everywhere. -/
theorem bcastInDim_scalar_apply {α : Type} {t : Shape} (w : (⟨0, ![]⟩ : Shape).Idx → α)
    (h : (⟨0, ![]⟩ : Shape).BroadcastsInDim t ![]) (i : t.Idx) :
    broadcastInDim t ![] h w i = w ix0 :=
  broadcastInDim_apply _ h w i ix0 fun a => a.elim0

/-! ## Rows scaled by a column -/

/-- Rows scaled by a column: entry `(p, q)` is `X(p,q) · n(p)`. -/
noncomputable def scaleRows (X : FVec Ideal ⟨2, ![A, B]⟩ .f32) (n : FVec Ideal ⟨2, ![A, 1]⟩ .f32) : FVec Ideal ⟨2, ![A, B]⟩ .f32 :=
  fun i => X i * n (ix2 ⟨(i 0).val, idx2_lt0 i⟩ (0 : Fin 1))

theorem scaleRows_ix2 (X : FVec Ideal ⟨2, ![A, B]⟩ .f32) (n : FVec Ideal ⟨2, ![A, 1]⟩ .f32) (p : Fin A) (q : Fin B) :
    scaleRows X n (ix2 p q) = X (ix2 p q) * n (ix2 p (0 : Fin 1)) := rfl

/-- The kernel body's spelling: the loaded block and column cast to their own shapes, the column broadcast along the rows. -/
theorem kernel_scale (x : FVec Ideal ⟨2, ![A, B]⟩ .f32) (n : FVec Ideal ⟨2, ![A, 1]⟩ .f32)
    (hx : (⟨2, ![A, B]⟩ : Shape).ShapeCasts ⟨2, ![A, B]⟩) (hn : (⟨2, ![A, 1]⟩ : Shape).ShapeCasts ⟨2, ![A, 1]⟩)
    (hb : (⟨2, ![A, 1]⟩ : Shape).Broadcasts ⟨2, ![A, B]⟩) :
    mulf (shapeCast ⟨2, ![A, B]⟩ x hx) (broadcastTo ⟨2, ![A, B]⟩ (shapeCast ⟨2, ![A, 1]⟩ n hn) hb) = scaleRows x n := by
  rw [shapeCast_self, shapeCast_self]
  funext i
  obtain ⟨p, q, rfl⟩ : ∃ (p : Fin A) (q : Fin B), i = ix2 p q := ⟨i 0, i 1, eq_ix2 i⟩
  rw [scaleRows_ix2]
  exact (mulf_apply _ _ _).trans (congrArg (x (ix2 p q) * ·) (Column.broadcastTo_a1_ab_apply n hb p q))

/-- The host's spelling: the column lifted to the matrix's shape by `broadcast_in_dim`. -/
theorem host_scale (X : FVec Ideal ⟨2, ![A, B]⟩ .f32) (N : FVec Ideal ⟨2, ![A, 1]⟩ .f32)
    (h : (⟨2, ![A, 1]⟩ : Shape).BroadcastsInDim ⟨2, ![A, B]⟩ ![0, 1]) :
    mulf X (broadcastInDim ⟨2, ![A, B]⟩ ![0, 1] h N) = scaleRows X N := by
  funext i
  obtain ⟨p, q, rfl⟩ : ∃ (p : Fin A) (q : Fin B), i = ix2 p q := ⟨i 0, i 1, eq_ix2 i⟩
  rw [scaleRows_ix2]
  exact (mulf_apply _ _ _).trans (congrArg (X (ix2 p q) * ·) (bcastInDim_col_apply N h p q))

/-- Entry `(p, q)` reads row `p` only: a block whose row `p` is the array's row `r` agrees with the array there. -/
theorem scaleRows_rows {A' : Nat} (x : FVec Ideal ⟨2, ![A', B]⟩ .f32) (n : FVec Ideal ⟨2, ![A', 1]⟩ .f32)
    (X : FVec Ideal ⟨2, ![A, B]⟩ .f32) (N : FVec Ideal ⟨2, ![A, 1]⟩ .f32) (p : Fin A') (r : Fin A) (q : Fin B)
    (hx : ∀ j : Fin B, x (ix2 p j) = X (ix2 r j)) (hn : n (ix2 p (0 : Fin 1)) = N (ix2 r (0 : Fin 1))) :
    scaleRows x n (ix2 p q) = scaleRows X N (ix2 r q) := by
  rw [scaleRows_ix2, scaleRows_ix2, hx q, hn]

/-! ## Rows scaled by a column, plus a bias row -/

/-- Entry `(p, q)` is `X(p,q) · n(p) + b(q)`. -/
noncomputable def scaleBias (X : FVec Ideal ⟨2, ![A, B]⟩ .f32) (n : FVec Ideal ⟨2, ![A, 1]⟩ .f32) (b : FVec Ideal ⟨1, ![B]⟩ .f32) :
    FVec Ideal ⟨2, ![A, B]⟩ .f32 :=
  fun i => X i * n (ix2 ⟨(i 0).val, idx2_lt0 i⟩ (0 : Fin 1)) + b (ix1 ⟨(i 1).val, idx2_lt1 i⟩)

theorem scaleBias_ix2 (X : FVec Ideal ⟨2, ![A, B]⟩ .f32) (n : FVec Ideal ⟨2, ![A, 1]⟩ .f32) (b : FVec Ideal ⟨1, ![B]⟩ .f32)
    (p : Fin A) (q : Fin B) : scaleBias X n b (ix2 p q) = X (ix2 p q) * n (ix2 p (0 : Fin 1)) + b (ix1 q) := rfl

/-- The kernel body's spelling: the bias `[B]` recast to the row `[1, B]` and broadcast down the rows. -/
theorem kernel_scaleBias (x : FVec Ideal ⟨2, ![A, B]⟩ .f32) (n : FVec Ideal ⟨2, ![A, 1]⟩ .f32) (b : FVec Ideal ⟨1, ![B]⟩ .f32)
    (hx : (⟨2, ![A, B]⟩ : Shape).ShapeCasts ⟨2, ![A, B]⟩) (hn : (⟨2, ![A, 1]⟩ : Shape).ShapeCasts ⟨2, ![A, 1]⟩)
    (hb : (⟨2, ![A, 1]⟩ : Shape).Broadcasts ⟨2, ![A, B]⟩)
    (hc : (⟨1, ![B]⟩ : Shape).ShapeCasts ⟨2, ![1, B]⟩) (hr : (⟨2, ![1, B]⟩ : Shape).Broadcasts ⟨2, ![A, B]⟩) :
    addf (mulf (shapeCast ⟨2, ![A, B]⟩ x hx) (broadcastTo ⟨2, ![A, B]⟩ (shapeCast ⟨2, ![A, 1]⟩ n hn) hb))
        (broadcastTo ⟨2, ![A, B]⟩ (shapeCast ⟨2, ![1, B]⟩ b hc) hr)
      = scaleBias x n b := by
  rw [kernel_scale]
  funext i
  obtain ⟨p, q, rfl⟩ : ∃ (p : Fin A) (q : Fin B), i = ix2 p q := ⟨i 0, i 1, eq_ix2 i⟩
  rw [scaleBias_ix2]
  refine (addf_apply _ _ _).trans (congrArg₂ (· + ·) (scaleRows_ix2 x n p q) ?_)
  exact (broadcastTo_1b_ab_apply _ hr p q).trans (shapeCast_a_1a_apply b hc (0 : Fin 1) q)

/-- The host's spelling: the bias lifted to `[1, B]` and then to `[A, B]`. -/
theorem host_scaleBias (X : FVec Ideal ⟨2, ![A, B]⟩ .f32) (N : FVec Ideal ⟨2, ![A, 1]⟩ .f32) (b : FVec Ideal ⟨1, ![B]⟩ .f32)
    (h : (⟨2, ![A, 1]⟩ : Shape).BroadcastsInDim ⟨2, ![A, B]⟩ ![0, 1])
    (h1 : (⟨1, ![B]⟩ : Shape).BroadcastsInDim ⟨2, ![1, B]⟩ ![1])
    (h2 : (⟨2, ![1, B]⟩ : Shape).BroadcastsInDim ⟨2, ![A, B]⟩ ![0, 1]) :
    addf (mulf X (broadcastInDim ⟨2, ![A, B]⟩ ![0, 1] h N))
        (broadcastInDim ⟨2, ![A, B]⟩ ![0, 1] h2 (broadcastInDim ⟨2, ![1, B]⟩ ![1] h1 b))
      = scaleBias X N b := by
  rw [host_scale]
  funext i
  obtain ⟨p, q, rfl⟩ : ∃ (p : Fin A) (q : Fin B), i = ix2 p q := ⟨i 0, i 1, eq_ix2 i⟩
  rw [scaleBias_ix2]
  exact (addf_apply _ _ _).trans (congrArg₂ (· + ·) (scaleRows_ix2 X N p q) (Affine.bias_rows_apply b h1 h2 p q))

theorem scaleBias_rows {A' : Nat} (x : FVec Ideal ⟨2, ![A', B]⟩ .f32) (n : FVec Ideal ⟨2, ![A', 1]⟩ .f32)
    (X : FVec Ideal ⟨2, ![A, B]⟩ .f32) (N : FVec Ideal ⟨2, ![A, 1]⟩ .f32) (b : FVec Ideal ⟨1, ![B]⟩ .f32)
    (p : Fin A') (r : Fin A) (q : Fin B)
    (hx : ∀ j : Fin B, x (ix2 p j) = X (ix2 r j)) (hn : n (ix2 p (0 : Fin 1)) = N (ix2 r (0 : Fin 1))) :
    scaleBias x n b (ix2 p q) = scaleBias X N b (ix2 r q) := by
  rw [scaleBias_ix2, scaleBias_ix2, hx q, hn]

/-! ## Scale, dense layer with bias and rectifier, second dense layer, scale -/

/-- The hidden layer: entry `(p, k)` is `max (Σ_j (X(p,j) · d(p)) · W₁(j,k) + b₁(k)) 0`. -/
noncomputable def hidden (X : FVec Ideal ⟨2, ![A, K]⟩ .f32) (d : FVec Ideal ⟨2, ![A, 1]⟩ .f32) (W1 : FVec Ideal ⟨2, ![K, H]⟩ .f32)
    (b1 : FVec Ideal ⟨1, ![H]⟩ .f32) : FVec Ideal ⟨2, ![A, H]⟩ .f32 :=
  fun i => max ((∑ j : Fin K, (X (ix2 ⟨(i 0).val, idx2_lt0 i⟩ j) * d (ix2 ⟨(i 0).val, idx2_lt0 i⟩ (0 : Fin 1))) * W1 (ix2 j ⟨(i 1).val, idx2_lt1 i⟩))
      + b1 (ix1 ⟨(i 1).val, idx2_lt1 i⟩)) (Ideal.ofBits .f32 0x00000000#32)

theorem hidden_ix2 (X : FVec Ideal ⟨2, ![A, K]⟩ .f32) (d : FVec Ideal ⟨2, ![A, 1]⟩ .f32) (W1 : FVec Ideal ⟨2, ![K, H]⟩ .f32)
    (b1 : FVec Ideal ⟨1, ![H]⟩ .f32) (p : Fin A) (k : Fin H) :
    hidden X d W1 b1 (ix2 p k)
      = max ((∑ j : Fin K, (X (ix2 p j) * d (ix2 p (0 : Fin 1))) * W1 (ix2 j k)) + b1 (ix1 k)) (Ideal.ofBits .f32 0x00000000#32) := rfl

/-- The whole layer: entry `(p, q)` is `(Σ_k hidden(p,k) · W₂(k,q)) · n(p)`. -/
noncomputable def fused (X : FVec Ideal ⟨2, ![A, K]⟩ .f32) (d : FVec Ideal ⟨2, ![A, 1]⟩ .f32) (W1 : FVec Ideal ⟨2, ![K, H]⟩ .f32)
    (b1 : FVec Ideal ⟨1, ![H]⟩ .f32) (W2 : FVec Ideal ⟨2, ![H, M]⟩ .f32) (n : FVec Ideal ⟨2, ![A, 1]⟩ .f32) : FVec Ideal ⟨2, ![A, M]⟩ .f32 :=
  fun i => (∑ k : Fin H, hidden X d W1 b1 (ix2 ⟨(i 0).val, idx2_lt0 i⟩ k) * W2 (ix2 k ⟨(i 1).val, idx2_lt1 i⟩))
    * n (ix2 ⟨(i 0).val, idx2_lt0 i⟩ (0 : Fin 1))

theorem fused_ix2 (X : FVec Ideal ⟨2, ![A, K]⟩ .f32) (d : FVec Ideal ⟨2, ![A, 1]⟩ .f32) (W1 : FVec Ideal ⟨2, ![K, H]⟩ .f32)
    (b1 : FVec Ideal ⟨1, ![H]⟩ .f32) (W2 : FVec Ideal ⟨2, ![H, M]⟩ .f32) (n : FVec Ideal ⟨2, ![A, 1]⟩ .f32) (p : Fin A) (q : Fin M) :
    fused X d W1 b1 W2 n (ix2 p q) = (∑ k : Fin H, hidden X d W1 b1 (ix2 p k) * W2 (ix2 k q)) * n (ix2 p (0 : Fin 1)) := rfl

/-- The kernel body's hidden layer: the scaled block and the weights rounded to bf16, the matrix unit's product into a zero
    accumulator, the bias recast to a row and broadcast, the maximum with a splat zero. -/
theorem kernel_hidden (x : FVec Ideal ⟨2, ![A, K]⟩ .f32) (d : FVec Ideal ⟨2, ![A, 1]⟩ .f32) (W1 : FVec Ideal ⟨2, ![K, H]⟩ .f32)
    (b1 : FVec Ideal ⟨1, ![H]⟩ .f32) (prec : Option ContractPrecision)
    (hx : (⟨2, ![A, K]⟩ : Shape).ShapeCasts ⟨2, ![A, K]⟩) (hd : (⟨2, ![A, 1]⟩ : Shape).ShapeCasts ⟨2, ![A, 1]⟩)
    (hb : (⟨2, ![A, 1]⟩ : Shape).Broadcasts ⟨2, ![A, K]⟩) (ht : FTy.bf16.bits < FTy.f32.bits)
    (hc : (⟨1, ![H]⟩ : Shape).ShapeCasts ⟨2, ![1, H]⟩) (hr : (⟨2, ![1, H]⟩ : Shape).Broadcasts ⟨2, ![A, H]⟩) :
    maximumf
        (addf (FloatOps.matmul (DotDims.plain A K H) prec
            (truncf .bf16 (mulf (shapeCast ⟨2, ![A, K]⟩ x hx) (broadcastTo ⟨2, ![A, K]⟩ (shapeCast ⟨2, ![A, 1]⟩ d hd) hb)) ht)
            (truncf .bf16 W1 ht) (constant ⟨2, ![A, H]⟩ .f32 0x00000000#32))
          (broadcastTo ⟨2, ![A, H]⟩ (shapeCast ⟨2, ![1, H]⟩ b1 hc) hr))
        (broadcast ⟨2, ![A, H]⟩ (Scalar.ofBits (F := Ideal) .f32 0x00000000#32))
      = hidden x d W1 b1 := by
  rw [kernel_scale]
  funext i
  obtain ⟨p, k, rfl⟩ : ∃ (p : Fin A) (k : Fin H), i = ix2 p k := ⟨i 0, i 1, eq_ix2 i⟩
  rw [hidden_ix2]
  refine (maximumf_apply _ _ _).trans (congrArg₂ max ?_ rfl)
  refine (Affine.body_apply prec (scaleRows x d) (truncf .bf16 W1 ht) (shapeCast ⟨2, ![1, H]⟩ b1 hc) ht hr p k).trans ?_
  rw [Affine.affine_ix2, shapeCast_a_1a_apply b1 hc (0 : Fin 1) k]
  rfl

/-- The host's hidden layer: `dot_general`, the bias lifted twice, the maximum with a broadcast rank-0 zero. -/
theorem host_hidden (X : FVec Ideal ⟨2, ![A, K]⟩ .f32) (D : FVec Ideal ⟨2, ![A, 1]⟩ .f32) (W1 : FVec Ideal ⟨2, ![K, H]⟩ .f32)
    (b1 : FVec Ideal ⟨1, ![H]⟩ .f32) (prec : Option ContractPrecision) (sched : HostSchedule)
    (h : (⟨2, ![A, 1]⟩ : Shape).BroadcastsInDim ⟨2, ![A, K]⟩ ![0, 1])
    (h1 : (⟨1, ![H]⟩ : Shape).BroadcastsInDim ⟨2, ![1, H]⟩ ![1])
    (h2 : (⟨2, ![1, H]⟩ : Shape).BroadcastsInDim ⟨2, ![A, H]⟩ ![0, 1])
    (hz : (⟨0, ![]⟩ : Shape).BroadcastsInDim ⟨2, ![A, H]⟩ ![]) :
    maximumf
        (addf (FloatOps.dotGeneral (DotDims.plain A K H) prec sched (mulf X (broadcastInDim ⟨2, ![A, K]⟩ ![0, 1] h D)) W1)
          (broadcastInDim ⟨2, ![A, H]⟩ ![0, 1] h2 (broadcastInDim ⟨2, ![1, H]⟩ ![1] h1 b1)))
        (broadcastInDim ⟨2, ![A, H]⟩ ![] hz (constant (F := Ideal) ⟨0, ![]⟩ .f32 0x00000000#32))
      = hidden X D W1 b1 := by
  rw [host_scale]
  funext i
  obtain ⟨p, k, rfl⟩ : ∃ (p : Fin A) (k : Fin H), i = ix2 p k := ⟨i 0, i 1, eq_ix2 i⟩
  rw [hidden_ix2]
  refine (maximumf_apply _ _ _).trans (congrArg₂ max ?_ ?_)
  · exact Affine.host_apply prec sched (scaleRows X D) W1 b1 h1 h2 p k
  · exact bcastInDim_scalar_apply _ hz (ix2 p k)

/-- The kernel body's whole layer. -/
theorem kernel_fused (x : FVec Ideal ⟨2, ![A, K]⟩ .f32) (d : FVec Ideal ⟨2, ![A, 1]⟩ .f32) (W1 : FVec Ideal ⟨2, ![K, H]⟩ .f32)
    (b1 : FVec Ideal ⟨1, ![H]⟩ .f32) (W2 : FVec Ideal ⟨2, ![H, M]⟩ .f32) (n : FVec Ideal ⟨2, ![A, 1]⟩ .f32)
    (prec : Option ContractPrecision)
    (hx : (⟨2, ![A, K]⟩ : Shape).ShapeCasts ⟨2, ![A, K]⟩) (hd : (⟨2, ![A, 1]⟩ : Shape).ShapeCasts ⟨2, ![A, 1]⟩)
    (hb : (⟨2, ![A, 1]⟩ : Shape).Broadcasts ⟨2, ![A, K]⟩) (ht : FTy.bf16.bits < FTy.f32.bits)
    (hc : (⟨1, ![H]⟩ : Shape).ShapeCasts ⟨2, ![1, H]⟩) (hr : (⟨2, ![1, H]⟩ : Shape).Broadcasts ⟨2, ![A, H]⟩)
    (hbn : (⟨2, ![A, 1]⟩ : Shape).Broadcasts ⟨2, ![A, M]⟩) :
    mulf
        (FloatOps.matmul (DotDims.plain A H M) prec
          (truncf .bf16 (maximumf
            (addf (FloatOps.matmul (DotDims.plain A K H) prec
                (truncf .bf16 (mulf (shapeCast ⟨2, ![A, K]⟩ x hx) (broadcastTo ⟨2, ![A, K]⟩ (shapeCast ⟨2, ![A, 1]⟩ d hd) hb)) ht)
                (truncf .bf16 W1 ht) (constant ⟨2, ![A, H]⟩ .f32 0x00000000#32))
              (broadcastTo ⟨2, ![A, H]⟩ (shapeCast ⟨2, ![1, H]⟩ b1 hc) hr))
            (broadcast ⟨2, ![A, H]⟩ (Scalar.ofBits (F := Ideal) .f32 0x00000000#32))) ht)
          (truncf .bf16 W2 ht) (constant ⟨2, ![A, M]⟩ .f32 0x00000000#32))
        (broadcastTo ⟨2, ![A, M]⟩ (shapeCast ⟨2, ![A, 1]⟩ n hd) hbn)
      = fused x d W1 b1 W2 n := by
  rw [kernel_hidden, shapeCast_self]
  funext i
  obtain ⟨p, q, rfl⟩ : ∃ (p : Fin A) (q : Fin M), i = ix2 p q := ⟨i 0, i 1, eq_ix2 i⟩
  rw [fused_ix2]
  refine (mulf_apply _ _ _).trans (congrArg₂ (· * ·) ?_ (Column.broadcastTo_a1_ab_apply n hbn p q))
  exact PlainDot.matmul_apply_ix2 prec (truncf .bf16 (hidden x d W1 b1) ht) (truncf .bf16 W2 ht) p q

/-- The host's whole layer. -/
theorem host_fused (X : FVec Ideal ⟨2, ![A, K]⟩ .f32) (D : FVec Ideal ⟨2, ![A, 1]⟩ .f32) (W1 : FVec Ideal ⟨2, ![K, H]⟩ .f32)
    (b1 : FVec Ideal ⟨1, ![H]⟩ .f32) (W2 : FVec Ideal ⟨2, ![H, M]⟩ .f32) (N : FVec Ideal ⟨2, ![A, 1]⟩ .f32)
    (prec : Option ContractPrecision) (sched : HostSchedule)
    (h : (⟨2, ![A, 1]⟩ : Shape).BroadcastsInDim ⟨2, ![A, K]⟩ ![0, 1])
    (h1 : (⟨1, ![H]⟩ : Shape).BroadcastsInDim ⟨2, ![1, H]⟩ ![1])
    (h2 : (⟨2, ![1, H]⟩ : Shape).BroadcastsInDim ⟨2, ![A, H]⟩ ![0, 1])
    (hz : (⟨0, ![]⟩ : Shape).BroadcastsInDim ⟨2, ![A, H]⟩ ![])
    (hn : (⟨2, ![A, 1]⟩ : Shape).BroadcastsInDim ⟨2, ![A, M]⟩ ![0, 1]) :
    mulf
        (FloatOps.dotGeneral (DotDims.plain A H M) prec sched
          (maximumf
            (addf (FloatOps.dotGeneral (DotDims.plain A K H) prec sched (mulf X (broadcastInDim ⟨2, ![A, K]⟩ ![0, 1] h D)) W1)
              (broadcastInDim ⟨2, ![A, H]⟩ ![0, 1] h2 (broadcastInDim ⟨2, ![1, H]⟩ ![1] h1 b1)))
            (broadcastInDim ⟨2, ![A, H]⟩ ![] hz (constant (F := Ideal) ⟨0, ![]⟩ .f32 0x00000000#32)))
          W2)
        (broadcastInDim ⟨2, ![A, M]⟩ ![0, 1] hn N)
      = fused X D W1 b1 W2 N := by
  rw [host_hidden]
  funext i
  obtain ⟨p, q, rfl⟩ : ∃ (p : Fin A) (q : Fin M), i = ix2 p q := ⟨i 0, i 1, eq_ix2 i⟩
  rw [fused_ix2]
  refine (mulf_apply _ _ _).trans (congrArg₂ (· * ·) ?_ (bcastInDim_col_apply N hn p q))
  exact PlainDot.dotGeneral_apply_ix2 prec sched (hidden X D W1 b1) W2 p q

/-- Entry `(p, q)` of the whole layer reads row `p` of the matrix and of the two columns only. -/
theorem fused_rows {A' : Nat} (x : FVec Ideal ⟨2, ![A', K]⟩ .f32) (d n : FVec Ideal ⟨2, ![A', 1]⟩ .f32)
    (X : FVec Ideal ⟨2, ![A, K]⟩ .f32) (D N : FVec Ideal ⟨2, ![A, 1]⟩ .f32) (W1 : FVec Ideal ⟨2, ![K, H]⟩ .f32)
    (b1 : FVec Ideal ⟨1, ![H]⟩ .f32) (W2 : FVec Ideal ⟨2, ![H, M]⟩ .f32) (p : Fin A') (r : Fin A) (q : Fin M)
    (hx : ∀ j : Fin K, x (ix2 p j) = X (ix2 r j)) (hd : d (ix2 p (0 : Fin 1)) = D (ix2 r (0 : Fin 1)))
    (hn : n (ix2 p (0 : Fin 1)) = N (ix2 r (0 : Fin 1))) :
    fused x d W1 b1 W2 n (ix2 p q) = fused X D W1 b1 W2 N (ix2 r q) := by
  rw [fused_ix2, fused_ix2, hn]
  refine congrArg (· * N (ix2 r (0 : Fin 1))) (Finset.sum_congr rfl fun k _ => congrArg (· * W2 (ix2 k q)) ?_)
  rw [hidden_ix2, hidden_ix2, hd]
  exact congrArg (fun s => max (s + b1 (ix1 k)) (Ideal.ofBits .f32 0x00000000#32))
    (Finset.sum_congr rfl fun j _ => by rw [hx j])

end Idealize.ShloMosaic.GcnRows
-- ==== Proof.HostChain.lean ====
/-
  The network as one function of the eight argument arrays, and the reference's result read as that function.
  The host's steps shared by both programs are named here once and never opened again: the inverse square root of a
  node's clamped degree (a scatter-add of ones along an edge list, the maximum with one, the power −1/2), a vector kept as
  a column, an edge list with negative entries wrapped around, the gather of the nodes' features, and the aggregation of
  rows along the edges (gather at the sources, scatter-add at the destinations) at widths 128 and 64. Between them sit the
  three row-wise layers (rows scaled by a column; scale, dense layer with bias and rectifier, dense layer, scale; rows scaled
  by a column plus a bias row), each one function of whole arrays whichever program spells it.
-/
import proofs.«157622_j4827543241288_1_alg».proof.Proof.Gen.ReferenceIdeal.Run
import proofs.«157622_j4827543241288_1_alg».proof.Proof.LibGcnRows

set_option maxRecDepth 16384
set_option pp.maxSteps 4000
set_option pp.deepTerms false

noncomputable section

namespace Cert.Bridge

open Idealize.ShloMosaic Idealize.ShloMosaic.TcCoe Idealize.SL.Sem
open Idealize.ShloMosaic.GcnRows
open Cert.ReferenceIdeal Cert.ReferenceIdeal.Gen

/-- The inverse square root of each node's degree along an edge list, the degree clamped below at one. -/
def invSqrtDeg (e : (⟨S1600000, .i32⟩ : BufTy).Contents (Elt Ideal)) : (⟨S100000, .f32⟩ : BufTy).Contents (Elt Ideal) :=
  Host.powf (F := Ideal)
    (maximumf (broadcastInDim S100000 ![] bcast_S_S100000 (id (constant (F := Ideal) S_ .f32 0x3F800000#32)))
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 e)
        (broadcastInDim S1600000 ![] bcast_S_S1600000 (constant (F := Ideal) S_ .f32 0x3F800000#32))))
    (broadcastInDim S100000 ![] bcast_S_S100000 (constant (F := Ideal) S_ .f32 0xBF000000#32))

/-- A vector over the nodes kept as a column. -/
def column (v : (⟨S100000, .f32⟩ : BufTy).Contents (Elt Ideal)) : (⟨S100000x1, .f32⟩ : BufTy).Contents (Elt Ideal) :=
  broadcastInDim S100000x1 ![0] bcast_S100000_S100000x1_0 v

/-- An edge list as a column of row indices, negative entries wrapped around by the number of nodes. -/
def wrapEdges (e : (⟨S1600000, .i32⟩ : BufTy).Contents (Elt Ideal)) : (⟨S1600000x1, .i32⟩ : BufTy).Contents (Elt Ideal) :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 100000#32))) e)

/-- The nodes' feature rows gathered by the node ids, negative ids wrapped around. -/
def features (ids : (⟨S100000, .i32⟩ : BufTy).Contents (Elt Ideal)) (emb : (⟨S100000x128, .f32⟩ : BufTy).Contents (Elt Ideal)) :
    (⟨S100000x128, .f32⟩ : BufTy).Contents (Elt Ideal) :=
  Host.gather gather_S100000x128_S100000x1_S100000x128_1_0_n_n_0_1_1128 emb
    (broadcastInDim S100000x1 ![0] bcast_S100000_S100000x1_0
      (select (cmpi .slt ids (broadcastInDim S100000 ![] bcast_S_S100000 (constantI S_ 32 0#32)))
        (addi ids (broadcastInDim S100000 ![] bcast_S_S100000 (constantI S_ 32 100000#32))) ids))

/-- Rows of width 128 aggregated along the edges: gathered at the sources, added up at the destinations. -/
def aggregate128 (src dst : (⟨S1600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h (wrapEdges src))

/-- Rows of width 64 aggregated along the edges. -/
def aggregate64 (src dst : (⟨S1600000, .i32⟩ : BufTy).Contents (Elt Ideal)) (h : (⟨S100000x64, .f32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h (wrapEdges src))

/-- The first layer's input: the gathered features scaled by the out-degree norm, aggregated along the edges. -/
def layer1In (a0 : (⟨S100000, .i32⟩ : BufTy).Contents (Elt Ideal)) (a1 a2 : (⟨S1600000, .i32⟩ : BufTy).Contents (Elt Ideal))
    (a3 : (⟨S100000x128, .f32⟩ : BufTy).Contents (Elt Ideal)) : (⟨S100000x128, .f32⟩ : BufTy).Contents (Elt Ideal) :=
  aggregate128 a1 a2 (scaleRows (A := 100000) (B := 128) (features a0 a3) (column (invSqrtDeg a1)))

/-- The second layer's input: the first layer's output (scaled by the in-degree norm, dense with bias and rectifier, dense,
    scaled by the out-degree norm), aggregated along the edges. -/
def layer2In (a0 : (⟨S100000, .i32⟩ : BufTy).Contents (Elt Ideal)) (a1 a2 : (⟨S1600000, .i32⟩ : BufTy).Contents (Elt Ideal))
    (a3 : (⟨S100000x128, .f32⟩ : BufTy).Contents (Elt Ideal)) (a4 : (⟨S128x128, .f32⟩ : BufTy).Contents (Elt Ideal))
    (a5 : (⟨S128, .f32⟩ : BufTy).Contents (Elt Ideal)) (a6 : (⟨S128x64, .f32⟩ : BufTy).Contents (Elt Ideal)) :
    (⟨S100000x64, .f32⟩ : BufTy).Contents (Elt Ideal) :=
  aggregate64 a1 a2 (fused (A := 100000) (K := 128) (H := 128) (M := 64) (layer1In a0 a1 a2 a3) (column (invSqrtDeg a2)) a4 a5 a6
    (column (invSqrtDeg a1)))

/-- The network's output: the second layer's input scaled by the in-degree norm, plus the second bias. -/
def network (a0 : (⟨S100000, .i32⟩ : BufTy).Contents (Elt Ideal)) (a1 a2 : (⟨S1600000, .i32⟩ : BufTy).Contents (Elt Ideal))
    (a3 : (⟨S100000x128, .f32⟩ : BufTy).Contents (Elt Ideal)) (a4 : (⟨S128x128, .f32⟩ : BufTy).Contents (Elt Ideal))
    (a5 : (⟨S128, .f32⟩ : BufTy).Contents (Elt Ideal)) (a6 : (⟨S128x64, .f32⟩ : BufTy).Contents (Elt Ideal))
    (a7 : (⟨S64, .f32⟩ : BufTy).Contents (Elt Ideal)) : (⟨S100000x64, .f32⟩ : BufTy).Contents (Elt Ideal) :=
  scaleBias (A := 100000) (B := 64) (layer2In a0 a1 a2 a3 a4 a5 a6) (column (invSqrtDeg a2)) a7

/-- The reference's result, as its run states it, is the network of its argument arrays: its three stretches of multiply,
    `dot_general`, bias, maximum and add are the host's spellings of the three layers. -/
theorem reference_value (m : (ℓ : Loc nD τ sig) → Buf (Elt Ideal) ℓ) (c : Dev nD) :
    Cert.ReferenceIdeal.Value.res_main_v60 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold network layer2In layer1In
  rw [← host_scaleBias _ _ _ bcast_S100000x1_S100000x64_0_1 bcast_S64_S1x64_1 bcast_S1x64_S100000x64_0_1,
    ← host_fused _ _ _ _ _ _ none .single bcast_S100000x1_S100000x128_0_1 bcast_S128_S1x128_1 bcast_S1x128_S100000x128_0_1
        bcast_S_S100000x128 bcast_S100000x1_S100000x64_0_1,
    ← host_scale _ _ bcast_S100000x1_S100000x128_0_1]
  unfold Cert.ReferenceIdeal.Value.res_main_v60
  rfl

end Cert.Bridge

end
-- ==== Proof.KernelRun.lean ====
/-
  The idealized kernel's run with its result named. The program is three row-tiled regions among stretches of host
  operations; the buffers' contents at each boundary are a fold through the program from the launch memory, and the
  last boundary's contents are what every unscoped buffer holds in any final state. Read at the result buffer this
  says: every weakly fair execution terminates, faults nowhere, leaves the eight argument arrays as launched, and
  leaves the result array at the last boundary's contents of that buffer — the third region's output array after its
  twenty write-backs. What those contents are, as a function of the arguments, is computed in the sibling modules.
-/
import proofs.«157622_j4827543241288_1_alg».proof.Proof.Gen.KernelIdeal.Frame

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array named: in every final state the result buffer holds the last boundary's contents
    of it, and the arguments are as launched. -/
theorem run_named : θ_run defs (onTc (τ := τ) (main (F := F))) ⟨m, fun _ => 0, ρ⟩ (fun r => ∀ c : Dev nD,
      r.2.mem ((c.tc : Thread nD τ).loc main_v44) = W10 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v44 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Bridge

end
-- ==== Proof.Region0.lean ====
/-
  The first region: rows scaled by a column. The region runs over twenty row blocks of 5000 rows; block t of the output
  is the body's product of block t of the feature matrix with block t of the column, and a block's row p is the array's
  row 5000·t + p. Since entry (p, q) of the scaled block reads row p only, what point t writes back is block t of the
  whole arrays' scaled rows; the twenty blocks tile the 100000 rows, so the output array ends holding exactly that.
-/
import proofs.«157622_j4827543241288_1_alg».proof.Proof.Gen.KernelIdeal.Frame
import proofs.«157622_j4827543241288_1_alg».proof.Proof.LibGcnRows
import Idealize.ShloMosaic.Lib.Pipeline.Value
import Idealize.ShloMosaic.Lib.ValueIdx

set_option maxRecDepth 16384

noncomputable section

namespace Cert.KernelIdeal.Bridge

open Idealize.ShloMosaic Idealize.ShloMosaic.TcCoe Idealize.SL.Sem
open Idealize.ShloMosaic.Pipeline (Dat)
open Idealize.ShloMosaic.ValueIdx Idealize.ShloMosaic.GcnRows
open Cert.KernelIdeal Cert.KernelIdeal.Gen

variable (V : (c : Dev nD) → (b : Ref sig .tc) → Buf (Elt Ideal) ((c : Thread nD τ).loc b))

theorem zero_offsets2 : (![0, 0] : Fin 2 → Nat) = fun _ => 0 := funext fun a => by fin_cases a <;> rfl

/-- The body's arithmetic is the scaled rows of its two loaded blocks. -/
theorem pay0_eq (x0 : FVec Ideal S5000x128 .f32) (x1 : FVec Ideal S5000x1 .f32) :
    k0_pay1 (F := Ideal) x0 x1 = scaleRows x0 x1 := by
  unfold k0_pay1
  exact kernel_scale x0 x1 _ _ _

/-- The index maps over the grid: every row-tiled window is at block (t, 0) at point t. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of the feature block at point t is row 5000·t + p of the feature matrix. -/
theorem iblk0_0_apply (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_v21 : S100000x128.Idx → Elt Ideal .f32) k := by
  obtain ⟨e0, e1, -⟩ := idx0 t
  unfold iblk0
  rw [View.read_apply]
  show V c main_v21 _ = V c main_v21 _
  refine congrArg (V c main_v21) (funext fun a => Fin.ext ?_)
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- Row p of the column block at point t is row 5000·t + p of the column. -/
theorem iblk0_1_apply (c : Dev nD) (t : Fin cfg0.N) (y : S5000x1.Idx) (k : S100000x1.Idx)
    (hk0 : (k 0).val = 5000 * t.val + (y 0).val) (hk1 : (k 1).val = (y 1).val) :
    (iblk0 V c 1 t : Vec Ideal S5000x1 .f32) y = (V c main_v13 : S100000x1.Idx → Elt Ideal .f32) k := by
  obtain ⟨-, -, e2, e3, -⟩ := idx0 t
  unfold iblk0
  rw [View.read_apply]
  show V c main_v13 _ = V c main_v13 _
  refine congrArg (V c main_v13) (funext fun a => Fin.ext ?_)
  match a with
  | ⟨0, _⟩ => show win0_1.index t (0 : Fin 2) * 5000 + 1 * (y 0).val = (k 0).val; rw [e2, hk0]; omega
  | ⟨1, _⟩ => show win0_1.index t (1 : Fin 2) * 1 + 1 * (y 1).val = (k 1).val; rw [e3, hk1]; omega

/-- What point t writes back is block t of the whole arrays' scaled rows. -/
theorem flushed0 (c : Dev nD) (t : Fin cfg0.N) :
    (dat0 V c).flushed 2 t = ((cfg0.win 2).blk t).view.read (Elt Ideal) (scaleRows (V c main_v21) (V c main_v13)) := by
  show (cfg0.win 2).cut (grid0.coords t) ((dat0 V c).after 2 t) = _
  rw [after0_2]
  unfold out0_2
  rw [View.canon_unit_zero zero_offsets2]
  simp only [View.ld_unit_zero (S := S5000x128) zero_offsets2, View.ld_unit_zero (S := S5000x1) zero_offsets2]
  rw [pay0_eq]
  obtain ⟨-, -, -, -, e4, e5⟩ := idx0 t
  have hN : cfg0.N = 20 := N_0
  have ht : t.val < 20 := hN ▸ t.isLt
  funext y
  have hy0 : (y 0).val < 5000 := (y 0).isLt
  have hy1 : (y 1).val < 128 := (y 1).isLt
  let r : Fin 100000 := ⟨5000 * t.val + (y 0).val, by omega⟩
  have hemb : ((cfg0.win 2).blk t).view.emb y = (ix2 r (y 1) : S100000x128.Idx) := by
    funext a; apply Fin.ext
    match a with
    | ⟨0, _⟩ => show win0_2.index t (0 : Fin 2) * 5000 + 1 * (y 0).val = 5000 * t.val + (y 0).val; rw [e4]; omega
    | ⟨1, _⟩ => show win0_2.index t (1 : Fin 2) * 128 + 1 * (y 1).val = (y 1).val; rw [e5]; omega
  show scaleRows (iblk0 V c 0 t) (iblk0 V c 1 t) y = scaleRows (V c main_v21) (V c main_v13) (((cfg0.win 2).blk t).view.emb y)
  rw [hemb, eq_ix2 y]
  refine scaleRows_rows _ _ _ _ (y 0) r (y 1) (fun j => ?_) ?_
  · exact iblk0_0_apply V c t (ix2 (y 0) j) (ix2 r j) rfl rfl
  · exact iblk0_1_apply V c t (ix2 (y 0) (0 : Fin 1)) (ix2 r (0 : Fin 1)) rfl rfl

/-- The twenty row blocks tile the output array. -/
theorem cover0 (i : S100000x128.Idx) :
    ∃ t : Fin cfg0.N, (cfg0.win 2).flush t = true ∧ i ∈ ((cfg0.win 2).blk t).view.set := by
  have h0 : (i 0).val < 100000 := (i 0).isLt
  have h1 : (i 1).val < 128 := (i 1).isLt
  have hN : cfg0.N = 20 := N_0
  let t : Fin cfg0.N := ⟨(i 0).val / 5000, by rw [hN]; omega⟩
  have htv : t.val = (i 0).val / 5000 := rfl
  refine ⟨t, flush0_2 t, ?_⟩
  obtain ⟨-, -, -, -, e4, e5⟩ := idx0 t
  show i ∈ ((View.whole main_v22).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [e4, htv]; omega
  | ⟨1, _⟩ =>
    show win0_2.index t (1 : Fin 2) * 128 ≤ (i 1).val ∧ (i 1).val < win0_2.index t (1 : Fin 2) * 128 + 128
    rw [e5]; omega

/-- The first region's output array after its run: the feature matrix's rows scaled by the column, whatever the contents
    `V` the region is entered with. -/
theorem final0 (c : Dev nD) : (dat0 V c).arrAt 2 cfg0.N = scaleRows (V c main_v21) (V c main_v13) :=
  (dat0 V c).arrAt_eq_of_cover 2 (scaleRows (V c main_v21) (V c main_v13)) (fun t _ => flushed0 V c t) cover0

end Cert.KernelIdeal.Bridge

end
-- ==== Proof.Region1.lean ====
/-
  The second region: one layer applied to row blocks. A block of 5000 aggregated rows is scaled by its block of the
  in-degree column, multiplied by the first weight matrix with the first bias added and rectified, multiplied by the
  second weight matrix and scaled by its block of the out-degree column. The weights and the bias are the same whole
  arrays at every point; the row-tiled windows sit at block (t, 0). Every entry (p, q) of the layer reads row p of the
  rows and of the two columns only, so what point t writes back is block t of the layer applied to the whole arrays,
  and the twenty blocks tile the 100000 rows.
-/
import proofs.«157622_j4827543241288_1_alg».proof.Proof.Gen.KernelIdeal.Frame
import proofs.«157622_j4827543241288_1_alg».proof.Proof.LibGcnRows
import Idealize.ShloMosaic.Lib.Pipeline.Value
import Idealize.ShloMosaic.Lib.ValueIdx

set_option maxRecDepth 16384

noncomputable section

namespace Cert.KernelIdeal.Bridge

open Idealize.ShloMosaic Idealize.ShloMosaic.TcCoe Idealize.SL.Sem
open Idealize.ShloMosaic.Pipeline (Dat)
open Idealize.ShloMosaic.ValueIdx Idealize.ShloMosaic.GcnRows
open Cert.KernelIdeal Cert.KernelIdeal.Gen

variable (V : (c : Dev nD) → (b : Ref sig .tc) → Buf (Elt Ideal) ((c : Thread nD τ).loc b))

theorem zero_offsets2' : (![0, 0] : Fin 2 → Nat) = fun _ => 0 := funext fun a => by fin_cases a <;> rfl
theorem zero_offsets1' : (![0] : Fin 1 → Nat) = fun _ => 0 := funext fun a => by fin_cases a; rfl

/-- The body's arithmetic is the layer of its six loaded blocks. -/
theorem pay1_eq (x0 : FVec Ideal S5000x128 .f32) (x1 : FVec Ideal S5000x1 .f32) (x2 : FVec Ideal S128x128 .f32)
    (x3 : FVec Ideal S128 .f32) (x4 : FVec Ideal S128x64 .f32) (x5 : FVec Ideal S5000x1 .f32) :
    k1_pay1 (F := Ideal) x0 x1 x2 x3 x4 x5 = fused x0 x1 x2 x3 x4 x5 := by
  unfold k1_pay1
  exact kernel_fused x0 x1 x2 x3 x4 x5 none _ _ _ _ _ _ _

/-- The index maps over the grid: the row-tiled windows are at block (t, 0) at point t, the weights and the bias at
    block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem idxOut1 : ∀ t : Fin cfg1.N, win1_6.index t (0 : Fin 2) = t.val ∧ win1_6.index t (1 : Fin 2) = 0 :=
  (by decide +kernel : ∀ t : Fin grid1.N, _)

/-- Row p of the aggregated block at point t is row 5000·t + p of the aggregated features. -/
theorem iblk1_0_apply (c : Dev nD) (t : Fin cfg1.N) (y : S5000x128.Idx) (k : S100000x128.Idx)
    (hk0 : (k 0).val = 5000 * t.val + (y 0).val) (hk1 : (k 1).val = (y 1).val) :
    (iblk1 V c 0 t : Vec Ideal S5000x128 .f32) y = (V c main_v32 : S100000x128.Idx → Elt Ideal .f32) k := by
  have e0 := (idx1 t).1
  have e1 := (idx1 t).2.1
  unfold iblk1
  rw [View.read_apply]
  show V c main_v32 _ = V c main_v32 _
  refine congrArg (V c main_v32) (funext fun a => Fin.ext ?_)
  match a with
  | ⟨0, _⟩ => show win1_0.index t (0 : Fin 2) * 5000 + 1 * (y 0).val = (k 0).val; rw [e0, hk0]; omega
  | ⟨1, _⟩ => show win1_0.index t (1 : Fin 2) * 128 + 1 * (y 1).val = (k 1).val; rw [e1, hk1]; omega

/-- Row p of the in-degree column's block at point t is row 5000·t + p of the column. -/
theorem iblk1_1_apply (c : Dev nD) (t : Fin cfg1.N) (y : S5000x1.Idx) (k : S100000x1.Idx)
    (hk0 : (k 0).val = 5000 * t.val + (y 0).val) (hk1 : (k 1).val = (y 1).val) :
    (iblk1 V c 1 t : Vec Ideal S5000x1 .f32) y = (V c main_v14 : S100000x1.Idx → Elt Ideal .f32) k := by
  have e0 := (idx1 t).2.2.1
  have e1 := (idx1 t).2.2.2.1
  unfold iblk1
  rw [View.read_apply]
  show V c main_v14 _ = V c main_v14 _
  refine congrArg (V c main_v14) (funext fun a => Fin.ext ?_)
  match a with
  | ⟨0, _⟩ => show win1_1.index t (0 : Fin 2) * 5000 + 1 * (y 0).val = (k 0).val; rw [e0, hk0]; omega
  | ⟨1, _⟩ => show win1_1.index t (1 : Fin 2) * 1 + 1 * (y 1).val = (k 1).val; rw [e1, hk1]; omega

/-- The first weight matrix is one block, the same at every point. -/
theorem iblk1_2_eq (c : Dev nD) (t : Fin cfg1.N) :
    (iblk1 V c 2 t : Vec Ideal S128x128 .f32) = (V c main_arg4 : S128x128.Idx → Elt Ideal .f32) := by
  have e0 := (idx1 t).2.2.2.2.1
  have e1 := (idx1 t).2.2.2.2.2.1
  funext y
  unfold iblk1
  rw [View.read_apply]
  show V c main_arg4 _ = V c main_arg4 y
  refine congrArg (V c main_arg4) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first bias is one block, the same at every point. -/
theorem iblk1_3_eq (c : Dev nD) (t : Fin cfg1.N) :
    (iblk1 V c 3 t : Vec Ideal S128 .f32) = (V c main_arg5 : S128.Idx → Elt Ideal .f32) := by
  have e0 := (idx1 t).2.2.2.2.2.2.1
  funext y
  unfold iblk1
  rw [View.read_apply]
  show V c main_arg5 _ = V c main_arg5 y
  refine congrArg (V c main_arg5) (funext fun a => Fin.ext ?_)
  match a with
  | ⟨0, _⟩ => show win1_3.index t (0 : Fin 1) * 128 + 1 * (y 0).val = (y 0).val; rw [e0]; omega

/-- The second weight matrix is one block, the same at every point. -/
theorem iblk1_4_eq (c : Dev nD) (t : Fin cfg1.N) :
    (iblk1 V c 4 t : Vec Ideal S128x64 .f32) = (V c main_arg6 : S128x64.Idx → Elt Ideal .f32) := by
  have e0 := (idx1 t).2.2.2.2.2.2.2.1
  have e1 := (idx1 t).2.2.2.2.2.2.2.2.1
  funext y
  unfold iblk1
  rw [View.read_apply]
  show V c main_arg6 _ = V c main_arg6 y
  refine congrArg (V c main_arg6) (funext fun a => Fin.ext ?_)
  match a with
  | ⟨0, _⟩ => show win1_4.index t (0 : Fin 2) * 128 + 1 * (y 0).val = (y 0).val; rw [e0]; omega
  | ⟨1, _⟩ => show win1_4.index t (1 : Fin 2) * 64 + 1 * (y 1).val = (y 1).val; rw [e1]; omega

/-- Row p of the out-degree column's block at point t is row 5000·t + p of the column. -/
theorem iblk1_5_apply (c : Dev nD) (t : Fin cfg1.N) (y : S5000x1.Idx) (k : S100000x1.Idx)
    (hk0 : (k 0).val = 5000 * t.val + (y 0).val) (hk1 : (k 1).val = (y 1).val) :
    (iblk1 V c 5 t : Vec Ideal S5000x1 .f32) y = (V c main_v13 : S100000x1.Idx → Elt Ideal .f32) k := by
  have e0 := (idx1 t).2.2.2.2.2.2.2.2.2.1
  have e1 := (idx1 t).2.2.2.2.2.2.2.2.2.2
  unfold iblk1
  rw [View.read_apply]
  show V c main_v13 _ = V c main_v13 _
  refine congrArg (V c main_v13) (funext fun a => Fin.ext ?_)
  match a with
  | ⟨0, _⟩ => show win1_5.index t (0 : Fin 2) * 5000 + 1 * (y 0).val = (k 0).val; rw [e0, hk0]; omega
  | ⟨1, _⟩ => show win1_5.index t (1 : Fin 2) * 1 + 1 * (y 1).val = (k 1).val; rw [e1, hk1]; omega

/-- What point t writes back is block t of the layer applied to the whole arrays. -/
theorem flushed1 (c : Dev nD) (t : Fin cfg1.N) :
    (dat1 V c).flushed 6 t = ((cfg1.win 6).blk t).view.read (Elt Ideal)
      (fused (V c main_v32) (V c main_v14) (V c main_arg4) (V c main_arg5) (V c main_arg6) (V c main_v13)) := by
  show (cfg1.win 6).cut (grid1.coords t) ((dat1 V c).after 6 t) = _
  rw [after1_6]
  unfold out1_6
  rw [View.canon_unit_zero zero_offsets2']
  simp only [View.ld_unit_zero (S := S5000x128) zero_offsets2', View.ld_unit_zero (S := S5000x1) zero_offsets2',
    View.ld_unit_zero (S := S128x128) zero_offsets2', View.ld_unit_zero (S := S128) zero_offsets1',
    View.ld_unit_zero (S := S128x64) zero_offsets2']
  rw [pay1_eq, iblk1_2_eq, iblk1_3_eq, iblk1_4_eq]
  have e4 := (idxOut1 t).1
  have e5 := (idxOut1 t).2
  have hN : cfg1.N = 20 := N_1
  have ht : t.val < 20 := hN ▸ t.isLt
  funext y
  have hy0 : (y 0).val < 5000 := (y 0).isLt
  have hy1 : (y 1).val < 64 := (y 1).isLt
  let r : Fin 100000 := ⟨5000 * t.val + (y 0).val, by omega⟩
  have hemb : ((cfg1.win 6).blk t).view.emb y = (ix2 r (y 1) : S100000x64.Idx) := by
    funext a; apply Fin.ext
    match a with
    | ⟨0, _⟩ => show win1_6.index t (0 : Fin 2) * 5000 + 1 * (y 0).val = 5000 * t.val + (y 0).val; rw [e4]; omega
    | ⟨1, _⟩ => show win1_6.index t (1 : Fin 2) * 64 + 1 * (y 1).val = (y 1).val; rw [e5]; omega
  show fused (iblk1 V c 0 t) (iblk1 V c 1 t) (V c main_arg4) (V c main_arg5) (V c main_arg6) (iblk1 V c 5 t) y
    = fused (V c main_v32) (V c main_v14) (V c main_arg4) (V c main_arg5) (V c main_arg6) (V c main_v13) (((cfg1.win 6).blk t).view.emb y)
  rw [hemb, eq_ix2 y]
  refine fused_rows _ _ _ _ _ _ _ _ _ (y 0) r (y 1) (fun j => ?_) ?_ ?_
  · exact iblk1_0_apply V c t (ix2 (y 0) j) (ix2 r j) rfl rfl
  · exact iblk1_1_apply V c t (ix2 (y 0) (0 : Fin 1)) (ix2 r (0 : Fin 1)) rfl rfl
  · exact iblk1_5_apply V c t (ix2 (y 0) (0 : Fin 1)) (ix2 r (0 : Fin 1)) rfl rfl

/-- The twenty row blocks tile the output array. -/
theorem cover1 (i : S100000x64.Idx) :
    ∃ t : Fin cfg1.N, (cfg1.win 6).flush t = true ∧ i ∈ ((cfg1.win 6).blk t).view.set := by
  have h0 : (i 0).val < 100000 := (i 0).isLt
  have h1 : (i 1).val < 64 := (i 1).isLt
  have hN : cfg1.N = 20 := N_1
  let t : Fin cfg1.N := ⟨(i 0).val / 5000, by rw [hN]; omega⟩
  have htv : t.val = (i 0).val / 5000 := rfl
  refine ⟨t, flush1_6 t, ?_⟩
  have e4 := (idxOut1 t).1
  have e5 := (idxOut1 t).2
  show i ∈ ((View.whole main_v33).slice (win1_6.rect t)).set
  rw [View.set_slice_whole, Rect.mem_set_unit]
  intro a
  match a with
  | ⟨0, _⟩ =>
    show win1_6.index t (0 : Fin 2) * 5000 ≤ (i 0).val ∧ (i 0).val < win1_6.index t (0 : Fin 2) * 5000 + 5000
    rw [e4, htv]; omega
  | ⟨1, _⟩ =>
    show win1_6.index t (1 : Fin 2) * 64 ≤ (i 1).val ∧ (i 1).val < win1_6.index t (1 : Fin 2) * 64 + 64
    rw [e5]; omega

/-- The second region's output array after its run: the layer applied to the whole arrays, whatever the contents `V` the
    region is entered with. -/
theorem final1 (c : Dev nD) : (dat1 V c).arrAt 6 cfg1.N
    = fused (V c main_v32) (V c main_v14) (V c main_arg4) (V c main_arg5) (V c main_arg6) (V c main_v13) :=
  (dat1 V c).arrAt_eq_of_cover 6 (fused (V c main_v32) (V c main_v14) (V c main_arg4) (V c main_arg5) (V c main_arg6) (V c main_v13))
    (fun t _ => flushed1 V c t) cover1

end Cert.KernelIdeal.Bridge

end
-- ==== Proof.Region2.lean ====
/-
  The third region: rows scaled by a column, plus a bias row. A block of 5000 aggregated rows is scaled by its block of the
  in-degree column and the bias, one whole array at every point, is added to every row. Entry (p, q) reads row p only, so what
  point t writes back is block t of the whole arrays' scaled and shifted rows, and the twenty blocks tile the 100000 rows.
-/
import proofs.«157622_j4827543241288_1_alg».proof.Proof.Gen.KernelIdeal.Frame
import proofs.«157622_j4827543241288_1_alg».proof.Proof.LibGcnRows
import Idealize.ShloMosaic.Lib.Pipeline.Value
import Idealize.ShloMosaic.Lib.ValueIdx

set_option maxRecDepth 16384

noncomputable section

namespace Cert.KernelIdeal.Bridge

open Idealize.ShloMosaic Idealize.ShloMosaic.TcCoe Idealize.SL.Sem
open Idealize.ShloMosaic.Pipeline (Dat)
open Idealize.ShloMosaic.ValueIdx Idealize.ShloMosaic.GcnRows
open Cert.KernelIdeal Cert.KernelIdeal.Gen

variable (V : (c : Dev nD) → (b : Ref sig .tc) → Buf (Elt Ideal) ((c : Thread nD τ).loc b))

theorem zero_offsets2'' : (![0, 0] : Fin 2 → Nat) = fun _ => 0 := funext fun a => by fin_cases a <;> rfl
theorem zero_offsets1'' : (![0] : Fin 1 → Nat) = fun _ => 0 := funext fun a => by fin_cases a; rfl

/-- The body's arithmetic is the scaled and shifted rows of its three loaded blocks. -/
theorem pay2_eq (x0 : FVec Ideal S5000x64 .f32) (x1 : FVec Ideal S5000x1 .f32) (x2 : FVec Ideal S64 .f32) :
    k2_pay1 (F := Ideal) x0 x1 x2 = scaleBias x0 x1 x2 := by
  unfold k2_pay1
  exact kernel_scaleBias x0 x1 x2 _ _ _ _ _

/-- The index maps over the grid: the row-tiled windows are at block (t, 0) at point t, the bias at block 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0 :=
  (by decide +kernel : ∀ t : Fin grid2.N, _)

theorem idxOut2 : ∀ t : Fin cfg2.N, win2_3.index t (0 : Fin 2) = t.val ∧ win2_3.index t (1 : Fin 2) = 0 :=
  (by decide +kernel : ∀ t : Fin grid2.N, _)

/-- Row p of the aggregated block at point t is row 5000·t + p of the aggregated features. -/
theorem iblk2_0_apply (c : Dev nD) (t : Fin cfg2.N) (y : S5000x64.Idx) (k : S100000x64.Idx)
    (hk0 : (k 0).val = 5000 * t.val + (y 0).val) (hk1 : (k 1).val = (y 1).val) :
    (iblk2 V c 0 t : Vec Ideal S5000x64 .f32) y = (V c main_v43 : S100000x64.Idx → Elt Ideal .f32) k := by
  have e0 := (idx2 t).1
  have e1 := (idx2 t).2.1
  unfold iblk2
  rw [View.read_apply]
  show V c main_v43 _ = V c main_v43 _
  refine congrArg (V c main_v43) (funext fun a => Fin.ext ?_)
  match a with
  | ⟨0, _⟩ => show win2_0.index t (0 : Fin 2) * 5000 + 1 * (y 0).val = (k 0).val; rw [e0, hk0]; omega
  | ⟨1, _⟩ => show win2_0.index t (1 : Fin 2) * 64 + 1 * (y 1).val = (k 1).val; rw [e1, hk1]; omega

/-- Row p of the in-degree column's block at point t is row 5000·t + p of the column. -/
theorem iblk2_1_apply (c : Dev nD) (t : Fin cfg2.N) (y : S5000x1.Idx) (k : S100000x1.Idx)
    (hk0 : (k 0).val = 5000 * t.val + (y 0).val) (hk1 : (k 1).val = (y 1).val) :
    (iblk2 V c 1 t : Vec Ideal S5000x1 .f32) y = (V c main_v14 : S100000x1.Idx → Elt Ideal .f32) k := by
  have e0 := (idx2 t).2.2.1
  have e1 := (idx2 t).2.2.2.1
  unfold iblk2
  rw [View.read_apply]
  show V c main_v14 _ = V c main_v14 _
  refine congrArg (V c main_v14) (funext fun a => Fin.ext ?_)
  match a with
  | ⟨0, _⟩ => show win2_1.index t (0 : Fin 2) * 5000 + 1 * (y 0).val = (k 0).val; rw [e0, hk0]; omega
  | ⟨1, _⟩ => show win2_1.index t (1 : Fin 2) * 1 + 1 * (y 1).val = (k 1).val; rw [e1, hk1]; omega

/-- The bias is one block, the same at every point. -/
theorem iblk2_2_eq (c : Dev nD) (t : Fin cfg2.N) :
    (iblk2 V c 2 t : Vec Ideal S64 .f32) = (V c main_arg7 : S64.Idx → Elt Ideal .f32) := by
  have e0 := (idx2 t).2.2.2.2
  funext y
  unfold iblk2
  rw [View.read_apply]
  show V c main_arg7 _ = V c main_arg7 y
  refine congrArg (V c main_arg7) (funext fun a => Fin.ext ?_)
  match a with
  | ⟨0, _⟩ => show win2_2.index t (0 : Fin 1) * 64 + 1 * (y 0).val = (y 0).val; rw [e0]; omega

/-- What point t writes back is block t of the whole arrays' scaled and shifted rows. -/
theorem flushed2 (c : Dev nD) (t : Fin cfg2.N) :
    (dat2 V c).flushed 3 t = ((cfg2.win 3).blk t).view.read (Elt Ideal)
      (scaleBias (V c main_v43) (V c main_v14) (V c main_arg7)) := by
  show (cfg2.win 3).cut (grid2.coords t) ((dat2 V c).after 3 t) = _
  rw [after2_3]
  unfold out2_3
  rw [View.canon_unit_zero zero_offsets2'']
  simp only [View.ld_unit_zero (S := S5000x64) zero_offsets2'', View.ld_unit_zero (S := S5000x1) zero_offsets2'',
    View.ld_unit_zero (S := S64) zero_offsets1'']
  rw [pay2_eq, iblk2_2_eq]
  have e4 := (idxOut2 t).1
  have e5 := (idxOut2 t).2
  have hN : cfg2.N = 20 := N_2
  have ht : t.val < 20 := hN ▸ t.isLt
  funext y
  have hy0 : (y 0).val < 5000 := (y 0).isLt
  have hy1 : (y 1).val < 64 := (y 1).isLt
  let r : Fin 100000 := ⟨5000 * t.val + (y 0).val, by omega⟩
  have hemb : ((cfg2.win 3).blk t).view.emb y = (ix2 r (y 1) : S100000x64.Idx) := by
    funext a; apply Fin.ext
    match a with
    | ⟨0, _⟩ => show win2_3.index t (0 : Fin 2) * 5000 + 1 * (y 0).val = 5000 * t.val + (y 0).val; rw [e4]; omega
    | ⟨1, _⟩ => show win2_3.index t (1 : Fin 2) * 64 + 1 * (y 1).val = (y 1).val; rw [e5]; omega
  show scaleBias (iblk2 V c 0 t) (iblk2 V c 1 t) (V c main_arg7) y
    = scaleBias (V c main_v43) (V c main_v14) (V c main_arg7) (((cfg2.win 3).blk t).view.emb y)
  rw [hemb, eq_ix2 y]
  refine scaleBias_rows _ _ _ _ _ (y 0) r (y 1) (fun j => ?_) ?_
  · exact iblk2_0_apply V c t (ix2 (y 0) j) (ix2 r j) rfl rfl
  · exact iblk2_1_apply V c t (ix2 (y 0) (0 : Fin 1)) (ix2 r (0 : Fin 1)) rfl rfl

/-- The twenty row blocks tile the output array. -/
theorem cover2 (i : S100000x64.Idx) :
    ∃ t : Fin cfg2.N, (cfg2.win 3).flush t = true ∧ i ∈ ((cfg2.win 3).blk t).view.set := by
  have h0 : (i 0).val < 100000 := (i 0).isLt
  have h1 : (i 1).val < 64 := (i 1).isLt
  have hN : cfg2.N = 20 := N_2
  let t : Fin cfg2.N := ⟨(i 0).val / 5000, by rw [hN]; omega⟩
  have htv : t.val = (i 0).val / 5000 := rfl
  refine ⟨t, flush2_3 t, ?_⟩
  have e4 := (idxOut2 t).1
  have e5 := (idxOut2 t).2
  show i ∈ ((View.whole main_v44).slice (win2_3.rect t)).set
  rw [View.set_slice_whole, Rect.mem_set_unit]
  intro a
  match a with
  | ⟨0, _⟩ =>
    show win2_3.index t (0 : Fin 2) * 5000 ≤ (i 0).val ∧ (i 0).val < win2_3.index t (0 : Fin 2) * 5000 + 5000
    rw [e4, htv]; omega
  | ⟨1, _⟩ =>
    show win2_3.index t (1 : Fin 2) * 64 ≤ (i 1).val ∧ (i 1).val < win2_3.index t (1 : Fin 2) * 64 + 64
    rw [e5]; omega

/-- The third region's output array after its run: the aggregated rows scaled by the column plus the bias, whatever the
    contents `V` the region is entered with. -/
theorem final2 (c : Dev nD) : (dat2 V c).arrAt 3 cfg2.N = scaleBias (V c main_v43) (V c main_v14) (V c main_arg7) :=
  (dat2 V c).arrAt_eq_of_cover 3 (scaleBias (V c main_v43) (V c main_v14) (V c main_arg7)) (fun t _ => flushed2 V c t) cover2

end Cert.KernelIdeal.Bridge

end
-- ==== Proof.Stage5.lean ====
/-
  The buffers the regions and the later host stretches read, as the host's first five stretches leave them before the first
  region: the gathered features, the two degree columns, and the argument arrays themselves (no host operation writes an
  argument). The stretches are taken one at a time, each from whatever the buffers held before it: the degrees along the two
  edge lists; the out-degree clamped at one; its power −1/2; the in-degree clamped at one; its power −1/2, the two columns and
  the gather. Chained, they are the named host functions of the arguments.
-/
import proofs.«157622_j4827543241288_1_alg».proof.Proof.Gen.KernelIdeal.Frame
import proofs.«157622_j4827543241288_1_alg».proof.Proof.HostChain
import Idealize.ShloMosaic.Lib.StableHlo.Run

set_option maxRecDepth 16384
set_option pp.maxSteps 4000
set_option pp.deepTerms false
set_option Elab.async false

noncomputable section

namespace Cert.KernelIdeal.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## One stretch at a time, from whatever the buffers held before it -/

theorem w1_v3 : W1 m ρ c (Proc.devRef .tc main_v3) = Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (W0 m ρ c (Proc.devRef .tc main_arg1))) (broadcastInDim S1600000 ![] bcast_S_S1600000 (constant (F := Ideal) S_ .f32 0x3F800000#32)) := by
  show StableHlo.after hostOps0 (W0 m ρ c) (Proc.devRef .tc main_v3) = _
  generalize W0 m ρ c = Vv
  after_results_simp
  try rfl
theorem w1_v6 : W1 m ρ c (Proc.devRef .tc main_v6) = Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (W0 m ρ c (Proc.devRef .tc main_arg2))) (broadcastInDim S1600000 ![] bcast_S_S1600000 (constant (F := Ideal) S_ .f32 0x3F800000#32)) := by
  show StableHlo.after hostOps0 (W0 m ρ c) (Proc.devRef .tc main_v6) = _
  generalize W0 m ρ c = Vv
  after_results_simp
  try rfl
theorem w1_cst_2 : W1 m ρ c (Proc.devRef .tc main_cst_2) = (constant (F := Ideal) S_ .f32 0x3F800000#32) := by
  show StableHlo.after hostOps0 (W0 m ρ c) (Proc.devRef .tc main_cst_2) = _
  generalize W0 m ρ c = Vv
  after_results_simp
  try rfl

theorem w2_v7 : W2 m ρ c (Proc.devRef .tc main_v7) = maximumf (F := Ideal) (φ := .f32) (broadcastInDim S100000 ![] bcast_S_S100000 (id (W1 m ρ c (Proc.devRef .tc main_cst_2)))) (W1 m ρ c (Proc.devRef .tc main_v3)) := by
  show StableHlo.after hostOps0_1 (W1 m ρ c) (Proc.devRef .tc main_v7) = _
  generalize W1 m ρ c = Vv
  after_results_simp
  try rfl

theorem w2_v6 : W2 m ρ c (Proc.devRef .tc main_v6) = W1 m ρ c (Proc.devRef .tc main_v6) := by
  show StableHlo.after hostOps0_1 (W1 m ρ c) (Proc.devRef .tc main_v6) = _
  generalize W1 m ρ c = Vv
  after_results_simp
  try rfl

theorem w3_v9 : W3 m ρ c (Proc.devRef .tc main_v9) = Host.powf (F := Ideal) (W2 m ρ c (Proc.devRef .tc main_v7)) (broadcastInDim S100000 ![] bcast_S_S100000 (constant (F := Ideal) S_ .f32 0xBF000000#32)) := by
  show StableHlo.after hostOps0_2 (W2 m ρ c) (Proc.devRef .tc main_v9) = _
  generalize W2 m ρ c = Vv
  after_results_simp
  try rfl

theorem w3_cst_4 : W3 m ρ c (Proc.devRef .tc main_cst_4) = (constant (F := Ideal) S_ .f32 0x3F800000#32) := by
  show StableHlo.after hostOps0_2 (W2 m ρ c) (Proc.devRef .tc main_cst_4) = _
  generalize W2 m ρ c = Vv
  after_results_simp
  try rfl

theorem w3_v6 : W3 m ρ c (Proc.devRef .tc main_v6) = W2 m ρ c (Proc.devRef .tc main_v6) := by
  show StableHlo.after hostOps0_2 (W2 m ρ c) (Proc.devRef .tc main_v6) = _
  generalize W2 m ρ c = Vv
  after_results_simp
  try rfl

theorem w4_v10 : W4 m ρ c (Proc.devRef .tc main_v10) = maximumf (F := Ideal) (φ := .f32) (broadcastInDim S100000 ![] bcast_S_S100000 (id (W3 m ρ c (Proc.devRef .tc main_cst_4)))) (W3 m ρ c (Proc.devRef .tc main_v6)) := by
  show StableHlo.after hostOps0_3 (W3 m ρ c) (Proc.devRef .tc main_v10) = _
  generalize W3 m ρ c = Vv
  after_results_simp
  try rfl

theorem w4_v9 : W4 m ρ c (Proc.devRef .tc main_v9) = W3 m ρ c (Proc.devRef .tc main_v9) := by
  show StableHlo.after hostOps0_3 (W3 m ρ c) (Proc.devRef .tc main_v9) = _
  generalize W3 m ρ c = Vv
  after_results_simp
  try rfl

theorem w5_v13_step : W5 m ρ c (Proc.devRef .tc main_v13) = broadcastInDim S100000x1 ![0] bcast_S100000_S100000x1_0 (W4 m ρ c (Proc.devRef .tc main_v9)) := by
  show StableHlo.after hostOps0_4 (W4 m ρ c) (Proc.devRef .tc main_v13) = _
  generalize W4 m ρ c = Vv
  after_results_simp
  try rfl
theorem w5_v14_step : W5 m ρ c (Proc.devRef .tc main_v14) = broadcastInDim S100000x1 ![0] bcast_S100000_S100000x1_0
    (Host.powf (F := Ideal) (W4 m ρ c (Proc.devRef .tc main_v10)) (broadcastInDim S100000 ![] bcast_S_S100000 (constant (F := Ideal) S_ .f32 0xBF000000#32))) := by
  show StableHlo.after hostOps0_4 (W4 m ρ c) (Proc.devRef .tc main_v14) = _
  generalize W4 m ρ c = Vv
  after_results_simp
  try rfl
theorem w5_v21_step : W5 m ρ c (Proc.devRef .tc main_v21) = Host.gather gather_S100000x128_S100000x1_S100000x128_1_0_n_n_0_1_1128 (W4 m ρ c (Proc.devRef .tc main_arg3))
    (broadcastInDim S100000x1 ![0] bcast_S100000_S100000x1_0
      (select (cmpi .slt (W4 m ρ c (Proc.devRef .tc main_arg0)) (broadcastInDim S100000 ![] bcast_S_S100000 (constantI S_ 32 0#32)))
        (addi (W4 m ρ c (Proc.devRef .tc main_arg0)) (broadcastInDim S100000 ![] bcast_S_S100000 (constantI S_ 32 100000#32))) (W4 m ρ c (Proc.devRef .tc main_arg0)))) := by
  show StableHlo.after hostOps0_4 (W4 m ρ c) (Proc.devRef .tc main_v21) = _
  generalize W4 m ρ c = Vv
  after_results_simp
  try rfl

/-! ## No host operation writes an argument -/

theorem w0_arg1 : W0 m ρ c (Proc.devRef .tc main_arg1) = (m ((c : Thread nD τ).loc main_arg1)) := rfl
theorem w0_arg2 : W0 m ρ c (Proc.devRef .tc main_arg2) = (m ((c : Thread nD τ).loc main_arg2)) := rfl
theorem w4_arg0 : W4 m ρ c (Proc.devRef .tc main_arg0) = (m ((c : Thread nD τ).loc main_arg0)) := by
  show StableHlo.after hostOps0_3 (StableHlo.after hostOps0_2 (StableHlo.after hostOps0_1 (StableHlo.after hostOps0 (W0 m ρ c)))) (Proc.devRef .tc main_arg0) = _
  after_results_simp
  try rfl
theorem w4_arg3 : W4 m ρ c (Proc.devRef .tc main_arg3) = (m ((c : Thread nD τ).loc main_arg3)) := by
  show StableHlo.after hostOps0_3 (StableHlo.after hostOps0_2 (StableHlo.after hostOps0_1 (StableHlo.after hostOps0 (W0 m ρ c)))) (Proc.devRef .tc main_arg3) = _
  after_results_simp
  try rfl
theorem w5_arg1 : W5 m ρ c (Proc.devRef .tc main_arg1) = (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_arg1) = _
  after_results_simp
  try rfl
theorem w5_arg2 : W5 m ρ c (Proc.devRef .tc main_arg2) = (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_arg2) = _
  after_results_simp
  try rfl
theorem w5_arg4 : W5 m ρ c (Proc.devRef .tc main_arg4) = (m ((c : Thread nD τ).loc main_arg4)) := by
  show StableHlo.after hostOps0_4 (StableHlo.after hostOps0_3 (StableHlo.after hostOps0_2 (StableHlo.after hostOps0_1 (StableHlo.after hostOps0 (W0 m ρ c))))) (Proc.devRef .tc main_arg4) = _
  after_results_simp
  try rfl
theorem w5_arg5 : W5 m ρ c (Proc.devRef .tc main_arg5) = (m ((c : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_arg5) = _
  after_results_simp
  try rfl
theorem w5_arg6 : W5 m ρ c (Proc.devRef .tc main_arg6) = (m ((c : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_arg6) = _
  after_results_simp
  try rfl
theorem w5_arg7 : W5 m ρ c (Proc.devRef .tc main_arg7) = (m ((c : Thread nD τ).loc main_arg7)) := by
  show StableHlo.after hostOps0_4 (StableHlo.after hostOps0_3 (StableHlo.after hostOps0_2 (StableHlo.after hostOps0_1 (StableHlo.after hostOps0 (W0 m ρ c))))) (Proc.devRef .tc main_arg7) = _
  after_results_simp
  try rfl

/-! ## Chained: the named host functions of the arguments -/

theorem w5_v13 : W5 m ρ c (Proc.devRef .tc main_v13) = (Cert.Bridge.column (Cert.Bridge.invSqrtDeg (m ((c : Thread nD τ).loc main_arg1)))) := by
  rw [w5_v13_step, w4_v9, w3_v9, w2_v7, w1_cst_2, w1_v3, w0_arg1]
  rfl
theorem w5_v14 : W5 m ρ c (Proc.devRef .tc main_v14) = (Cert.Bridge.column (Cert.Bridge.invSqrtDeg (m ((c : Thread nD τ).loc main_arg2)))) := by
  rw [w5_v14_step, w4_v10, w3_cst_4, w3_v6, w2_v6, w1_v6, w0_arg2]
  rfl
theorem w5_v21 : W5 m ρ c (Proc.devRef .tc main_v21) = (Cert.Bridge.features (m ((c : Thread nD τ).loc main_arg0)) (m ((c : Thread nD τ).loc main_arg3))) := by
  rw [w5_v21_step, w4_arg0, w4_arg3]
  rfl

end Cert.KernelIdeal.Bridge

end
-- ==== Proof.Boundaries.lean ====
/-
  The idealized kernel's result as the network of its arguments. The buffers' contents at each boundary of the program are a
  fold from the launch memory; read backwards from the result buffer:
    the result is the third region's output: the rows of the second aggregation scaled by the in-degree column, plus the bias;
    the second aggregation is the host's gather and scatter-add of the second region's output along the edges;
    the second region's output is the layer applied to the first aggregation and the two degree columns;
    the first aggregation is the host's gather and scatter-add of the first region's output along the edges;
    the first region's output is the gathered features scaled by the out-degree column;
    and the features, the degree columns and the edge lists are the host's first stretches applied to the arguments.
  A region changes its output array only, a host stretch the buffers it writes: everything else is carried along unchanged.
-/
import proofs.«157622_j4827543241288_1_alg».proof.Proof.Gen.KernelIdeal.Frame
import proofs.«157622_j4827543241288_1_alg».proof.Proof.KernelRun
import proofs.«157622_j4827543241288_1_alg».proof.Proof.Region0
import proofs.«157622_j4827543241288_1_alg».proof.Proof.Region1
import proofs.«157622_j4827543241288_1_alg».proof.Proof.Region2
import proofs.«157622_j4827543241288_1_alg».proof.Proof.HostChain
import proofs.«157622_j4827543241288_1_alg».proof.Proof.Stage5
import Idealize.ShloMosaic.Lib.StableHlo.Run

set_option maxRecDepth 16384
set_option pp.maxSteps 4000
set_option pp.deepTerms false
set_option Elab.async false

noncomputable section

namespace Cert.KernelIdeal.Bridge

open Idealize.ShloMosaic Idealize.ShloMosaic.TcCoe Idealize.SL.Sem Idealize.ShloMosaic.StableHlo
open Idealize.ShloMosaic.Pipeline (Dat)
open Idealize.ShloMosaic.GcnRows
open Cert.KernelIdeal Cert.KernelIdeal.Gen

variable (m : (ℓ : Loc nD τ sig) → Buf (Elt Ideal) ℓ) (ρ : Dev nD → PrngReg) (c : Dev nD)

/-! ## After the first region: its output is the gathered features scaled by the out-degree column -/

theorem w6_v22 : W6 m ρ c (Proc.devRef .tc main_v22)
    = scaleRows (A := 100000) (B := 128) (Cert.Bridge.features (m ((c : Thread nD τ).loc main_arg0)) (m ((c : Thread nD τ).loc main_arg3))) (Cert.Bridge.column (Cert.Bridge.invSqrtDeg (m ((c : Thread nD τ).loc main_arg1)))) :=
  (W6_arr m ρ c 2).trans ((final0 (V5 m ρ) c).trans
    (congrArg₂ (scaleRows (A := 100000) (B := 128)) (w5_v21 m ρ c) (w5_v13 m ρ c)))
theorem w6_v13 : W6 m ρ c (Proc.devRef .tc main_v13) = (Cert.Bridge.column (Cert.Bridge.invSqrtDeg (m ((c : Thread nD τ).loc main_arg1)))) :=
  (W6_arr m ρ c 1).trans (((dat0 (V5 m ρ) c).arrAt_in 1 rfl _).trans ((A_eq0 (V5 m ρ) c 1).trans (w5_v13 m ρ c)))
theorem w6_v14 : W6 m ρ c (Proc.devRef .tc main_v14) = (Cert.Bridge.column (Cert.Bridge.invSqrtDeg (m ((c : Thread nD τ).loc main_arg2)))) :=
  (W6_of_ne m ρ c main_v14 (by decide)).trans (w5_v14 m ρ c)
theorem w6_arg1 : W6 m ρ c (Proc.devRef .tc main_arg1) = (m ((c : Thread nD τ).loc main_arg1)) :=
  (W6_of_ne m ρ c main_arg1 (by decide)).trans (w5_arg1 m ρ c)
theorem w6_arg2 : W6 m ρ c (Proc.devRef .tc main_arg2) = (m ((c : Thread nD τ).loc main_arg2)) :=
  (W6_of_ne m ρ c main_arg2 (by decide)).trans (w5_arg2 m ρ c)
theorem w6_arg4 : W6 m ρ c (Proc.devRef .tc main_arg4) = (m ((c : Thread nD τ).loc main_arg4)) :=
  (W6_of_ne m ρ c main_arg4 (by decide)).trans (w5_arg4 m ρ c)
theorem w6_arg5 : W6 m ρ c (Proc.devRef .tc main_arg5) = (m ((c : Thread nD τ).loc main_arg5)) :=
  (W6_of_ne m ρ c main_arg5 (by decide)).trans (w5_arg5 m ρ c)
theorem w6_arg6 : W6 m ρ c (Proc.devRef .tc main_arg6) = (m ((c : Thread nD τ).loc main_arg6)) :=
  (W6_of_ne m ρ c main_arg6 (by decide)).trans (w5_arg6 m ρ c)
theorem w6_arg7 : W6 m ρ c (Proc.devRef .tc main_arg7) = (m ((c : Thread nD τ).loc main_arg7)) :=
  (W6_of_ne m ρ c main_arg7 (by decide)).trans (w5_arg7 m ρ c)

/-! ## Before the second region: the first aggregation along the edges -/

theorem w7_v32_step : W7 m ρ c (Proc.devRef .tc main_v32)
    = Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (W6 m ρ c (Proc.devRef .tc main_arg2)))
        (Host.gather gather_S100000x128_S1600000x1_S1600000x128_1_0_n_n_0_1_1128 (W6 m ρ c (Proc.devRef .tc main_v22))
          (broadcastInDim S1600000x1 ![0] bcast_S1600000_S1600000x1_0
            (select (cmpi .slt (W6 m ρ c (Proc.devRef .tc main_arg1)) (broadcastInDim S1600000 ![] bcast_S_S1600000 (constantI S_ 32 0#32)))
              (addi (W6 m ρ c (Proc.devRef .tc main_arg1)) (broadcastInDim S1600000 ![] bcast_S_S1600000 (constantI S_ 32 100000#32)))
              (W6 m ρ c (Proc.devRef .tc main_arg1))))) := by
  show StableHlo.after hostOps1 (W6 m ρ c) (Proc.devRef .tc main_v32) = _
  generalize W6 m ρ c = Vv
  after_results_simp
  try rfl

theorem w7_v32 : W7 m ρ c (Proc.devRef .tc main_v32) = Cert.Bridge.layer1In (m ((c : Thread nD τ).loc main_arg0)) (m ((c : Thread nD τ).loc main_arg1)) (m ((c : Thread nD τ).loc main_arg2)) (m ((c : Thread nD τ).loc main_arg3)) := by
  rw [w7_v32_step, w6_v22, w6_arg1, w6_arg2]
  rfl
theorem w7_v13 : W7 m ρ c (Proc.devRef .tc main_v13) = (Cert.Bridge.column (Cert.Bridge.invSqrtDeg (m ((c : Thread nD τ).loc main_arg1)))) := by
  refine Eq.trans ?_ (w6_v13 m ρ c)
  show StableHlo.after hostOps1 (W6 m ρ c) (Proc.devRef .tc main_v13) = _
  generalize W6 m ρ c = Vv
  after_results_simp
  try rfl
theorem w7_v14 : W7 m ρ c (Proc.devRef .tc main_v14) = (Cert.Bridge.column (Cert.Bridge.invSqrtDeg (m ((c : Thread nD τ).loc main_arg2)))) := by
  refine Eq.trans ?_ (w6_v14 m ρ c)
  show StableHlo.after hostOps1 (W6 m ρ c) (Proc.devRef .tc main_v14) = _
  generalize W6 m ρ c = Vv
  after_results_simp
  try rfl
theorem w7_arg1 : W7 m ρ c (Proc.devRef .tc main_arg1) = (m ((c : Thread nD τ).loc main_arg1)) := by
  refine Eq.trans ?_ (w6_arg1 m ρ c)
  show StableHlo.after hostOps1 (W6 m ρ c) (Proc.devRef .tc main_arg1) = _
  generalize W6 m ρ c = Vv
  after_results_simp
  try rfl
theorem w7_arg2 : W7 m ρ c (Proc.devRef .tc main_arg2) = (m ((c : Thread nD τ).loc main_arg2)) := by
  refine Eq.trans ?_ (w6_arg2 m ρ c)
  show StableHlo.after hostOps1 (W6 m ρ c) (Proc.devRef .tc main_arg2) = _
  generalize W6 m ρ c = Vv
  after_results_simp
  try rfl
theorem w7_arg4 : W7 m ρ c (Proc.devRef .tc main_arg4) = (m ((c : Thread nD τ).loc main_arg4)) := by
  refine Eq.trans ?_ (w6_arg4 m ρ c)
  show StableHlo.after hostOps1 (W6 m ρ c) (Proc.devRef .tc main_arg4) = _
  generalize W6 m ρ c = Vv
  after_results_simp
  try rfl
theorem w7_arg5 : W7 m ρ c (Proc.devRef .tc main_arg5) = (m ((c : Thread nD τ).loc main_arg5)) := by
  refine Eq.trans ?_ (w6_arg5 m ρ c)
  show StableHlo.after hostOps1 (W6 m ρ c) (Proc.devRef .tc main_arg5) = _
  generalize W6 m ρ c = Vv
  after_results_simp
  try rfl
theorem w7_arg6 : W7 m ρ c (Proc.devRef .tc main_arg6) = (m ((c : Thread nD τ).loc main_arg6)) := by
  refine Eq.trans ?_ (w6_arg6 m ρ c)
  show StableHlo.after hostOps1 (W6 m ρ c) (Proc.devRef .tc main_arg6) = _
  generalize W6 m ρ c = Vv
  after_results_simp
  try rfl
theorem w7_arg7 : W7 m ρ c (Proc.devRef .tc main_arg7) = (m ((c : Thread nD τ).loc main_arg7)) := by
  refine Eq.trans ?_ (w6_arg7 m ρ c)
  show StableHlo.after hostOps1 (W6 m ρ c) (Proc.devRef .tc main_arg7) = _
  generalize W6 m ρ c = Vv
  after_results_simp
  try rfl

/-! ## After the second region: the layer applied to the first aggregation -/

theorem w8_v33 : W8 m ρ c (Proc.devRef .tc main_v33)
    = fused (A := 100000) (K := 128) (H := 128) (M := 64) (Cert.Bridge.layer1In (m ((c : Thread nD τ).loc main_arg0)) (m ((c : Thread nD τ).loc main_arg1)) (m ((c : Thread nD τ).loc main_arg2)) (m ((c : Thread nD τ).loc main_arg3))) (Cert.Bridge.column (Cert.Bridge.invSqrtDeg (m ((c : Thread nD τ).loc main_arg2))))
        (m ((c : Thread nD τ).loc main_arg4)) (m ((c : Thread nD τ).loc main_arg5)) (m ((c : Thread nD τ).loc main_arg6)) (Cert.Bridge.column (Cert.Bridge.invSqrtDeg (m ((c : Thread nD τ).loc main_arg1)))) := by
  refine (W8_arr m ρ c 6).trans ((final1 (V7 m ρ) c).trans ?_)
  show fused (W7 m ρ c (Proc.devRef .tc main_v32)) (W7 m ρ c (Proc.devRef .tc main_v14)) (W7 m ρ c (Proc.devRef .tc main_arg4))
      (W7 m ρ c (Proc.devRef .tc main_arg5)) (W7 m ρ c (Proc.devRef .tc main_arg6)) (W7 m ρ c (Proc.devRef .tc main_v13)) = _
  rw [w7_v32, w7_v14, w7_arg4, w7_arg5, w7_arg6, w7_v13]
theorem w8_v14 : W8 m ρ c (Proc.devRef .tc main_v14) = (Cert.Bridge.column (Cert.Bridge.invSqrtDeg (m ((c : Thread nD τ).loc main_arg2)))) :=
  (W8_arr m ρ c 1).trans (((dat1 (V7 m ρ) c).arrAt_in 1 rfl _).trans ((A_eq1 (V7 m ρ) c 1).trans (w7_v14 m ρ c)))
theorem w8_arg1 : W8 m ρ c (Proc.devRef .tc main_arg1) = (m ((c : Thread nD τ).loc main_arg1)) :=
  (W8_of_ne m ρ c main_arg1 (by decide)).trans (w7_arg1 m ρ c)
theorem w8_arg2 : W8 m ρ c (Proc.devRef .tc main_arg2) = (m ((c : Thread nD τ).loc main_arg2)) :=
  (W8_of_ne m ρ c main_arg2 (by decide)).trans (w7_arg2 m ρ c)
theorem w8_arg7 : W8 m ρ c (Proc.devRef .tc main_arg7) = (m ((c : Thread nD τ).loc main_arg7)) :=
  (W8_of_ne m ρ c main_arg7 (by decide)).trans (w7_arg7 m ρ c)

/-! ## Before the third region: the second aggregation along the edges -/

theorem w9_v43_step : W9 m ρ c (Proc.devRef .tc main_v43)
    = Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (W8 m ρ c (Proc.devRef .tc main_arg2)))
        (Host.gather gather_S100000x64_S1600000x1_S1600000x64_1_0_n_n_0_1_164 (W8 m ρ c (Proc.devRef .tc main_v33))
          (broadcastInDim S1600000x1 ![0] bcast_S1600000_S1600000x1_0
            (select (cmpi .slt (W8 m ρ c (Proc.devRef .tc main_arg1)) (broadcastInDim S1600000 ![] bcast_S_S1600000 (constantI S_ 32 0#32)))
              (addi (W8 m ρ c (Proc.devRef .tc main_arg1)) (broadcastInDim S1600000 ![] bcast_S_S1600000 (constantI S_ 32 100000#32)))
              (W8 m ρ c (Proc.devRef .tc main_arg1))))) := by
  show StableHlo.after hostOps2 (W8 m ρ c) (Proc.devRef .tc main_v43) = _
  generalize W8 m ρ c = Vv
  after_results_simp
  try rfl

theorem w9_v43 : W9 m ρ c (Proc.devRef .tc main_v43)
    = Cert.Bridge.layer2In (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [w9_v43_step, w8_v33, w8_arg1, w8_arg2]
  rfl
theorem w9_v14 : W9 m ρ c (Proc.devRef .tc main_v14) = (Cert.Bridge.column (Cert.Bridge.invSqrtDeg (m ((c : Thread nD τ).loc main_arg2)))) := by
  refine Eq.trans ?_ (w8_v14 m ρ c)
  show StableHlo.after hostOps2 (W8 m ρ c) (Proc.devRef .tc main_v14) = _
  generalize W8 m ρ c = Vv
  after_results_simp
  try rfl
theorem w9_arg7 : W9 m ρ c (Proc.devRef .tc main_arg7) = (m ((c : Thread nD τ).loc main_arg7)) := by
  refine Eq.trans ?_ (w8_arg7 m ρ c)
  show StableHlo.after hostOps2 (W8 m ρ c) (Proc.devRef .tc main_arg7) = _
  generalize W8 m ρ c = Vv
  after_results_simp
  try rfl

/-! ## The result -/

/-- The result buffer's final contents are the network of the eight argument arrays. -/
theorem w10_v44 : W10 m ρ c (Proc.devRef .tc main_v44)
    = Cert.Bridge.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((final2 (V9 m ρ) c).trans ?_)
  show scaleBias (W9 m ρ c (Proc.devRef .tc main_v43)) (W9 m ρ c (Proc.devRef .tc main_v14)) (W9 m ρ c (Proc.devRef .tc main_arg7)) = _
  rw [w9_v43, w9_v14, w9_arg7]
  rfl

/-- The idealized kernel's run, read: every weakly fair execution terminates, nothing faults, the result array ends at the
    network of the arguments and the arguments are unchanged. -/
theorem kernel_run : θ_run defs (onTc (τ := τ) (main (F := Ideal))) ⟨m, fun _ => 0, ρ⟩ (fun r => ∀ c : Dev nD,
      r.2.mem ((c.tc : Thread nD τ).loc main_v44)
        = Cert.Bridge.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (w10_v44 m ρ c), (h c).2⟩) (run_named m ρ)

end Cert.KernelIdeal.Bridge

end
-- ==== Proof.lean ====
/-
  A two-layer graph convolution with symmetric degree normalisation on 100000 nodes and 1600000 edges, written twice.
  Both programs compute, on the host, the inverse square roots of the clamped out- and in-degrees, gather the node features,
  and twice aggregate rows along the edges (a gather at the sources, a scatter-add at the destinations). Between those steps
  the reference multiplies, applies `dot_general`, adds biases and rectifies on whole arrays, while the kernel does the same
  arithmetic in three regions over twenty blocks of 5000 rows: the features scaled by the out-degree norm; the first
  aggregation scaled by the in-degree norm, through the first dense layer with bias and rectifier and the second dense layer,
  scaled by the out-degree norm; and the second aggregation scaled by the in-degree norm plus the second bias.

  Over the extended reals the two are one function of the eight arguments (`Cert.Bridge.network`). Every entry of a region's
  block reads one row of its inputs, so a block computed alone is that block of the layer applied to the whole arrays, and
  the blocks tile the rows; rounding a matmul operand to bf16 is the identity there, a matrix product into a zero accumulator
  and the host's `dot_general` are the same finite sum, and a bias recast to a row and broadcast is the bias lifted twice.
  The shared host steps are applied to equal arrays and are never opened. No step moves a factor across a sum or cancels
  anything, so the finiteness of the inputs is not used: the two results agree on every extended-real input.

  The ideal pass rewrote nothing in the kernel, so the idealization claim is the trivial one. The word-level kernel and the
  idealized kernel run, fault nowhere and keep their arguments by their generated frames; the reference by its generated run.
-/
import proofs.«157622_j4827543241288_1_alg».proof.Defs
import proofs.«157622_j4827543241288_1_alg».proof.Proof.Gen.Kernel
import proofs.«157622_j4827543241288_1_alg».proof.Proof.Gen.Kernel.Frame
import proofs.«157622_j4827543241288_1_alg».proof.Proof.Gen.KernelIdeal
import proofs.«157622_j4827543241288_1_alg».proof.Proof.Gen.KernelIdeal.Frame
import proofs.«157622_j4827543241288_1_alg».proof.Proof.Gen.ReferenceIdeal
import proofs.«157622_j4827543241288_1_alg».proof.Proof.Gen.Pre_finite_inputs
import proofs.«157622_j4827543241288_1_alg».proof.Proof.Gen.ReferenceIdeal.Run
import proofs.«157622_j4827543241288_1_alg».proof.Proof.HostChain
import proofs.«157622_j4827543241288_1_alg».proof.Proof.Boundaries
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs, faults nowhere and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of those arguments as their result. -/
theorem algebraic : Cert.algebraic_KernelIdeal_ReferenceIdeal := by
  intro m ρ m' ρ' _ hagree
  refine ⟨fun c => Cert.Bridge.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Bridge.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.Bridge.reference_value m' c, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
